-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1024 .f32) (main_arg5 : FVec F S2048x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S8x2048x1024 .f32) (main_arg2 : FVec F S8x2048 .f32) (main_arg3 : FVec F S1024x1024 .f32) (main_arg4 : FVec F S1024 .f32) (main_arg5 : FVec F S2048x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S8x2048x1 : Shape := ⟨3, ![8, 2048, 1]⟩
abbrev S1x128x1024 : Shape := ⟨3, ![1, 128, 1024]⟩
abbrev S1x2048x1024 : Shape := ⟨3, ![1, 2048, 1024]⟩
abbrev S1x128x1 : Shape := ⟨3, ![1, 128, 1]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048, .f32⟩
  | .hbm, ⟨3, _⟩ => ⟨S1024x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S8x2048x1, .f32⟩
  | .hbm, ⟨15, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x1024, .f32⟩
  | .local _ .vmem, ⟨3, _⟩ => ⟨S1x128x1, .f32⟩
  | .local _ .vmem, ⟨4, _⟩ => ⟨S1x128x1, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x128x1024, .f32⟩
  | .local _ .vmem, ⟨11, _⟩ => ⟨S1x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  bcast_S8x2048_S8x2048x1_0_1 : S8x2048.BroadcastsInDim S8x2048x1 (![0, 1] : Fin 2 → Fin S8x2048x1.rank)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S128x2048_S128 : S128x2048.Reduces [1] S128
  shapeCasts_S128_S128x1 : S128.ShapeCasts S128x1
  broadcasts_S128x1_S128x2048 : S128x1.Broadcasts S128x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x1024 : S128x1.Broadcasts S128x1024
  shapeCasts_S128x1024_S1x128x1024 : S128x1024.ShapeCasts S1x128x1024
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x2048x1.size a
  hwx0_2 : ∀ i : grid0.Coords, EltTy.bits .f32 = 32 ∨ (Rect.block (s := S8x2048x1) S1x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x1024.size a ≤ S8x2048x1024.size a
  hwx0_8 : ∀ i : grid0.Coords, EltTy.bits .f32 = 32 ∨ (Rect.block (s := S8x2048x1024) S1x128x1024.size (cc0_transform_8 i) (hinb0_8 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S1024x1024 : Shape := ⟨2, ![1024, 1024]⟩
abbrev S1024 : Shape := ⟨1, ![1024]⟩
abbrev S2048x1024 : Shape := ⟨2, ![2048, 1024]⟩
abbrev S1x1x1024 : Shape := ⟨3, ![1, 1, 1024]⟩
abbrev S_ : Shape := ⟨0, ![]⟩
abbrev S8x2048x2048 : Shape := ⟨3, ![8, 2048, 2048]⟩
abbrev S8x2048x1 : Shape := ⟨3, ![8, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048, .f32⟩
  | .hbm, ⟨3, _⟩ => ⟨S1024x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x1024, .f32⟩
  | .hbm, ⟨35, _⟩ => ⟨S1024x1024, .f32⟩
  | .hbm, ⟨36, _⟩ => ⟨S8x2048x1024, .f32⟩
  | .hbm, ⟨37, _⟩ => ⟨S1024x1024, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  slices_S2048x1024_S1024x1024_0_0 : S2048x1024.Slices ![0, 0] S1024x1024
  slices_S2048x1024_S1024x1024_1024_0 : S2048x1024.Slices ![1024, 0] S1024x1024
  bcast_S8x2048x1_S8x2048x1024_0_1_2 : S8x2048x1.BroadcastsInDim S8x2048x1024 (![0, 1, 2] : Fin 3 → Fin S8x2048x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  One row of gated cross-attention, on the extended reals.

  A query row `x : Fin D → EReal` attends over `L` key rows `K m` (which are also the values): the scores are the inner
  products `⟨x, K m⟩`, the weights `exp (score m − max)` with the maximum taken over the row of scores starting from
  `−∞`, the attention coefficients the weights divided by their sum, and the context `Σ_m coeff m · K m`. A sigmoid gate
  `σ (x · Wg + bg)` then mixes the row itself with the update `tanh (context · W₀ + x · W₁ + bl) · pw`:
  `gate · update + (1 − gate) · x`. Every operation is the exact one on `[−∞, +∞]`; the two float literals the programs
  share (`−∞` and `1.0`) stay the words they are printed as. The whole result array is this row function applied at every
  batch `b` and position `l`, the second half of the `[2D, D]` weight matrix serving as `W₁`.
-/
import Idealize.ShloMosaic.PureOps.Ideal.Laws
import Idealize.ShloMosaic.Lib.ValueIdx
import Idealize.ShloMosaic.Lib.IdealHost

noncomputable section

open scoped BigOperators

namespace Cert.GatedAttn

open Idealize.ShloMosaic Idealize.ShloMosaic.ValueIdx

/-- The word both programs start the row maximum from: the f32 pattern of `−∞`. -/
abbrev negInf : EReal := Ideal.ofBits .f32 0xFF800000#32
/-- The word both programs write for `1.0` in `1 − gate`. -/
abbrev one : EReal := Ideal.ofBits .f32 0x3F800000#32

section Row
variable {D L : ℕ}

/-- The score of key row `m`: the inner product of the query row with it. -/
def score (x : Fin D → EReal) (K : Fin L → Fin D → EReal) (m : Fin L) : EReal := ∑ d : Fin D, x d * K m d

/-- The largest score of the row, folded from `−∞`. -/
def rowMax (x : Fin D → EReal) (K : Fin L → Fin D → EReal) : EReal :=
  (Finset.univ : Finset (Fin L)).fold max negInf (fun m => score x K m)

/-- The unnormalised weight of key row `m`. -/
def weight (x : Fin D → EReal) (K : Fin L → Fin D → EReal) (m : Fin L) : EReal := Ideal.exp (score x K m - rowMax x K)

/-- The attention coefficient of key row `m`: its weight over the sum of the row's weights. -/
def coeff (x : Fin D → EReal) (K : Fin L → Fin D → EReal) (m : Fin L) : EReal :=
  Ideal.div (weight x K m) (∑ m' : Fin L, weight x K m')

/-- The context: the key rows averaged with the attention coefficients. -/
def context (x : Fin D → EReal) (K : Fin L → Fin D → EReal) (e : Fin D) : EReal := ∑ m : Fin L, coeff x K m * K m e

/-- The sigmoid gate of a linear map of the row. -/
def gate (x : Fin D → EReal) (Wg : Fin D → Fin D → EReal) (bg : Fin D → EReal) (e : Fin D) : EReal :=
  Ideal.logistic ((∑ d : Fin D, x d * Wg d e) + bg e)

/-- The update: `tanh` of a linear map of the context and the row, scaled by the position's weight. -/
def update (x : Fin D → EReal) (K : Fin L → Fin D → EReal) (W0 W1 : Fin D → Fin D → EReal) (bl : Fin D → EReal) (pw : EReal)
    (e : Fin D) : EReal :=
  Ideal.tanh (((∑ k : Fin D, context x K k * W0 k e) + (∑ k : Fin D, x k * W1 k e)) + bl e) * pw

/-- The gated row: `gate · update + (1 − gate) · x`. -/
def rowOut (x : Fin D → EReal) (K : Fin L → Fin D → EReal) (pw : EReal) (Wg : Fin D → Fin D → EReal) (bg : Fin D → EReal)
    (W0 W1 : Fin D → Fin D → EReal) (bl : Fin D → EReal) (e : Fin D) : EReal :=
  gate x Wg bg e * update x K W0 W1 bl pw e + (one - gate x Wg bg e) * x e

end Row

/-- `1 / (1 + e^(−y))` written with the literal `1.0` is the sigmoid. -/
theorem logistic_of_literal (y : EReal) : Ideal.div one (one + Ideal.exp (-y)) = Ideal.logistic y := by
  show Ideal.div (Ideal.ofBits .f32 0x3F800000#32) (Ideal.ofBits .f32 0x3F800000#32 + Ideal.exp (-y)) = _
  rw [Ideal.ofBits_one_f32]
  rfl

/-- Taking the maximum with the starting value once more changes nothing: the fold is already above it. -/
theorem max_fold_max {ι : Type} (s : Finset ι) (b : EReal) (f : ι → EReal) : max b (s.fold max b f) = s.fold max b f :=
  max_eq_right ((Finset.le_fold_max b).mpr (Or.inl le_rfl))

/-- Row `1024 + k` of the stacked `[2048, 1024]` weight matrix. -/
abbrev upper (k : Fin 1024) : Fin 2048 := ⟨1024 + k.val, by have := k.isLt; omega⟩
/-- Row `k` of the stacked weight matrix, as a row of its first half. -/
abbrev lower (k : Fin 1024) : Fin 2048 := ⟨k.val, by have := k.isLt; omega⟩

/-- The whole result: the gated row at every batch `b` and position `l`, over the seven argument arrays (the rows `h`, the
    keys `ht`, the position weights, the gate's weights and bias, the stacked update weights and the update bias). -/
def G (h ht : (⟨3, ![8, 2048, 1024]⟩ : Shape).Idx → EReal) (pw : (⟨2, ![8, 2048]⟩ : Shape).Idx → EReal)
    (Wg : (⟨2, ![1024, 1024]⟩ : Shape).Idx → EReal) (bg : (⟨1, ![1024]⟩ : Shape).Idx → EReal)
    (Wl : (⟨2, ![2048, 1024]⟩ : Shape).Idx → EReal) (bl : (⟨1, ![1024]⟩ : Shape).Idx → EReal) :
    (⟨3, ![8, 2048, 1024]⟩ : Shape).Idx → EReal := fun i =>
  rowOut (fun d : Fin 1024 => h (ix3 (i 0) (i 1) d)) (fun (m : Fin 2048) (d : Fin 1024) => ht (ix3 (i 0) m d)) (pw (ix2 (i 0) (i 1)))
    (fun d e : Fin 1024 => Wg (ix2 d e)) (fun e : Fin 1024 => bg (ix1 e))
    (fun k e : Fin 1024 => Wl (ix2 (lower k) e)) (fun k e : Fin 1024 => Wl (ix2 (upper k) e)) (fun e : Fin 1024 => bl (ix1 e)) (i 2)

/-- `G` at an index written by coordinates. -/
theorem G_ix3 (h ht : (⟨3, ![8, 2048, 1024]⟩ : Shape).Idx → EReal) (pw : (⟨2, ![8, 2048]⟩ : Shape).Idx → EReal)
    (Wg : (⟨2, ![1024, 1024]⟩ : Shape).Idx → EReal) (bg : (⟨1, ![1024]⟩ : Shape).Idx → EReal)
    (Wl : (⟨2, ![2048, 1024]⟩ : Shape).Idx → EReal) (bl : (⟨1, ![1024]⟩ : Shape).Idx → EReal)
    (b : Fin 8) (l : Fin 2048) (e : Fin 1024) :
    G h ht pw Wg bg Wl bl (ix3 b l e)
      = rowOut (fun d : Fin 1024 => h (ix3 b l d)) (fun (m : Fin 2048) (d : Fin 1024) => ht (ix3 b m d)) (pw (ix2 b l))
          (fun d e : Fin 1024 => Wg (ix2 d e)) (fun e : Fin 1024 => bg (ix1 e))
          (fun k e : Fin 1024 => Wl (ix2 (lower k) e)) (fun k e : Fin 1024 => Wl (ix2 (upper k) e)) (fun e : Fin 1024 => bl (ix1 e)) e := rfl

end Cert.GatedAttn

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.KernelRow.lean ====
/-
  The block the kernel writes at one grid point, read row by row.

  At a grid point the kernel holds a tile of 128 query rows `P0` (a `[1, 128, 1024]` block), the batch's 2048 key rows
  `P3` (`[1, 2048, 1024]`), the tile's position weights `P7` (`[1, 128, 1]`), and the whole weight matrices and biases. It
  forms the `[128, 2048]` score matrix `rows · keysᵀ`, subtracts each row's maximum, exponentiates, divides by each row's
  sum, multiplies by the keys again, and pushes the result and the rows through the gate and the update. Every matrix
  product here is a plain sum over the contracted axis, every row maximum a fold of `max` over the row, every row sum a
  plain sum, and the roundings to sixteen bits on the way into a product are the identity on the extended reals. So entry
  `(0, q, e)` of the block is the gated row of `Proof/Spec.lean` of query row `q`.
-/
import proofs.«108480_j88261577933023_2_alg».proof.Proof.Gen.KernelIdeal.Value
import proofs.«108480_j88261577933023_2_alg».proof.Proof.Spec
import proofs.«108480_j88261577933023_2_alg».proof.Proof.LibMatmulNT
import proofs.«108480_j88261577933023_2_alg».proof.Proof.LibMatmulNN
import proofs.«108480_j88261577933023_2_alg».proof.Proof.LibKeepdims
import proofs.«108480_j88261577933023_2_alg».proof.Proof.LibRowMax
import Idealize.ShloMosaic.Lib.ValueLayout

noncomputable section

open scoped BigOperators

namespace Cert.KernelIdeal.RowValue

open Cert.KernelIdeal Cert.KernelIdeal.Gen Cert.GatedAttn Idealize.ShloMosaic Idealize.ShloMosaic.ValueIdx

/-! ## Pointwise operations read at an index -/

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

variable (P0 : FVec Ideal S1x128x1024 .f32) (P3 : FVec Ideal S1x2048x1024 .f32)

/-- Query row `q` of the tile. -/
abbrev qrow (q : Fin 128) : Fin 1024 → EReal := fun d => P0 (ix3 (0 : Fin 1) q d)
/-- The batch's key rows. -/
abbrev keys : Fin 2048 → Fin 1024 → EReal := fun m d => P3 (ix3 (0 : Fin 1) m d)

/-- The tile as a matrix: row `q`, column `d`. -/
theorem rows_apply (q : Fin 128) (d : Fin 1024) : (k0_pay2 (F := Ideal) P0 (ix2 q d) : EReal) = P0 (ix3 (0 : Fin 1) q d) :=
  shapeCast_1ab_ab_apply P0 shapeCasts_S1x128x1024_S128x1024 q d

/-- The same rows rounded to sixteen bits: unchanged. -/
theorem rows16_apply (q : Fin 128) (d : Fin 1024) : (k0_pay3 (F := Ideal) P0 (ix2 q d) : EReal) = P0 (ix3 (0 : Fin 1) q d) :=
  rows_apply P0 q d

/-! ## The attention stages -/

/-- The score matrix `rows · keysᵀ`. -/
def scores : FVec Ideal S128x2048 .f32 :=
  matmul dot_S128x1024_S2048x1024_S128x2048_1_1_0_0_n_n (some .fp32) (k0_pay2 (F := Ideal) P0)
    (shapeCast S2048x1024 P3 shapeCasts_S1x2048x1024_S2048x1024) (constant S128x2048 .f32 0x00000000#32)

theorem scores_apply (q : Fin 128) (m : Fin 2048) : scores P0 P3 (ix2 q m) = score (qrow P0 q) (keys P3) m := by
  refine (Cert.LibMatmulNT.matmul_nt_apply dot_S128x1024_S2048x1024_S128x2048_1_1_0_0_n_n rfl rfl rfl rfl rfl rfl
    (some .fp32) (k0_pay2 (F := Ideal) P0) (shapeCast S2048x1024 P3 shapeCasts_S1x2048x1024_S2048x1024) q m).trans ?_
  exact Finset.sum_congr rfl fun k _ => congrArg₂ (· * ·) (rows_apply P0 q k)
    (shapeCast_1ab_ab_apply P3 shapeCasts_S1x2048x1024_S2048x1024 m k)

/-- Each row's largest score, spread along the row. -/
def rowMaxes : FVec Ideal S128x2048 .f32 :=
  broadcastTo S128x2048 (shapeCast S128x1 (multiReduction .maximumf [1] S128 (scores P0 P3) 0xFF800000#32
    reduces_S128x2048_S128 (.inl rfl) rfl) shapeCasts_S128_S128x1) broadcasts_S128x1_S128x2048

theorem rowMaxes_apply (q : Fin 128) (m : Fin 2048) : rowMaxes P0 P3 (ix2 q m) = rowMax (qrow P0 q) (keys P3) := by
  refine (broadcastTo_a1_ab_apply _ broadcasts_S128x1_S128x2048 q m).trans ?_
  refine (shapeCast_a_a1_apply _ shapeCasts_S128_S128x1 q 0).trans ?_
  refine (Cert.LibRowMax.multiReduction_max_rows_apply (scores P0 P3) 0xFF800000#32 reduces_S128x2048_S128 (.inl rfl) rfl q).trans ?_
  exact congrArg (Finset.fold max _ · _) (funext fun k => scores_apply P0 P3 q k)

/-- The unnormalised weights. -/
def weights : FVec Ideal S128x2048 .f32 := exp (subf (scores P0 P3) (rowMaxes P0 P3))

theorem weights_apply (q : Fin 128) (m : Fin 2048) : weights P0 P3 (ix2 q m) = weight (qrow P0 q) (keys P3) m := by
  unfold weights
  rw [exp_apply, subf_apply, scores_apply, rowMaxes_apply]
  rfl

/-- The attention coefficients: each weight over its row's sum. -/
def coeffs : FVec Ideal S128x2048 .f32 :=
  divf (weights P0 P3) (broadcastTo S128x2048 (shapeCast S128x1 (multiReduction .add [1] S128 (weights P0 P3) 0x00000000#32
    reduces_S128x2048_S128 (.inl rfl) rfl) shapeCasts_S128_S128x1) broadcasts_S128x1_S128x2048)

theorem coeffs_apply (q : Fin 128) (m : Fin 2048) : coeffs P0 P3 (ix2 q m) = coeff (qrow P0 q) (keys P3) m := by
  unfold coeffs
  rw [divf_apply]
  refine congrArg₂ Ideal.div (weights_apply P0 P3 q m) ?_
  refine (rowSum_bcast_apply (weights P0 P3) 0x00000000#32 reduces_S128x2048_S128 (.inl rfl) rfl shapeCasts_S128_S128x1
    broadcasts_S128x1_S128x2048 q m).trans ?_
  exact Finset.sum_congr rfl fun k _ => weights_apply P0 P3 q k

/-- The context rows `coeffs · keys`. -/
def ctx : FVec Ideal S128x1024 .f32 :=
  matmul dot_S128x2048_S2048x1024_S128x1024_1_0_0_1_n_n none (truncf .bf16 (coeffs P0 P3) bitsLt_bf16_f32)
    (truncf .bf16 (shapeCast S2048x1024 P3 shapeCasts_S1x2048x1024_S2048x1024) bitsLt_bf16_f32) (constant S128x1024 .f32 0x00000000#32)

theorem ctx_apply (q : Fin 128) (e : Fin 1024) : ctx P0 P3 (ix2 q e) = context (qrow P0 q) (keys P3) e := by
  refine (Cert.LibMatmulNN.matmul_nn_apply dot_S128x2048_S2048x1024_S128x1024_1_0_0_1_n_n rfl rfl rfl rfl rfl rfl none
    (truncf .bf16 (coeffs P0 P3) bitsLt_bf16_f32)
    (truncf .bf16 (shapeCast S2048x1024 P3 shapeCasts_S1x2048x1024_S2048x1024) bitsLt_bf16_f32) q e).trans ?_
  exact Finset.sum_congr rfl fun k _ => congrArg₂ (· * ·) (coeffs_apply P0 P3 q k)
    (shapeCast_1ab_ab_apply P3 shapeCasts_S1x2048x1024_S2048x1024 k e)

/-! ## The two payloads the stored value is built from -/

variable (P1 : FVec Ideal S1024x1024 .bf16) (P2 : FVec Ideal S1x1024 .f32) (P4 P5 : FVec Ideal S1024x1024 .bf16)

/-- The gate payload is the sigmoid of `rows · Wg + bg`. -/
theorem pay4_eq : k0_pay4 (F := Ideal) P0 P1 P2 = logistic (addf
    (matmul dot_S128x1024_S1024x1024_S128x1024_1_0_0_1_n_n none (k0_pay3 (F := Ideal) P0) (shapeCast S1024x1024 P1 shapeCasts_S1024x1024_S1024x1024)
      (constant S128x1024 .f32 0x00000000#32))
    (broadcastTo S128x1024 (shapeCast S1x1024 P2 shapeCasts_S1x1024_S1x1024) broadcasts_S1x1024_S128x1024)) := rfl

theorem pay4_apply (q : Fin 128) (e : Fin 1024) :
    (k0_pay4 (F := Ideal) P0 P1 P2 (ix2 q e) : EReal) = gate (qrow P0 q) (fun d e : Fin 1024 => P1 (ix2 d e)) (fun e : Fin 1024 => P2 (ix2 (0 : Fin 1) e)) e := by
  rw [pay4_eq, logistic_apply, addf_apply]
  refine congrArg Ideal.logistic (congrArg₂ (· + ·) ?_ ?_)
  · refine (Cert.LibMatmulNN.matmul_nn_apply dot_S128x1024_S1024x1024_S128x1024_1_0_0_1_n_n rfl rfl rfl rfl rfl rfl none
      (k0_pay3 (F := Ideal) P0) (shapeCast S1024x1024 P1 shapeCasts_S1024x1024_S1024x1024) q e).trans ?_
    exact Finset.sum_congr rfl fun k _ => congrArg₂ (· * ·) (rows16_apply P0 q k)
      (congrFun (shapeCast_self P1 shapeCasts_S1024x1024_S1024x1024) (ix2 k e))
  · refine (broadcastTo_1b_ab_apply _ broadcasts_S1x1024_S128x1024 q e).trans ?_
    exact congrFun (shapeCast_self P2 shapeCasts_S1x1024_S1x1024) (ix2 (0 : Fin 1) e)

/-- The linear payload is `context · W₀ + rows · W₁`. -/
theorem pay5_eq : k0_pay5 (F := Ideal) P0 P3 P4 P5 = addf
    (matmul dot_S128x1024_S1024x1024_S128x1024_1_0_0_1_n_n none (truncf .bf16 (ctx P0 P3) bitsLt_bf16_f32)
      (shapeCast S1024x1024 P4 shapeCasts_S1024x1024_S1024x1024) (constant S128x1024 .f32 0x00000000#32))
    (matmul dot_S128x1024_S1024x1024_S128x1024_1_0_0_1_n_n none (k0_pay3 (F := Ideal) P0)
      (shapeCast S1024x1024 P5 shapeCasts_S1024x1024_S1024x1024) (constant S128x1024 .f32 0x00000000#32)) := rfl

theorem pay5_apply (q : Fin 128) (e : Fin 1024) :
    (k0_pay5 (F := Ideal) P0 P3 P4 P5 (ix2 q e) : EReal)
      = (∑ k : Fin 1024, context (qrow P0 q) (keys P3) k * P4 (ix2 k e)) + (∑ k : Fin 1024, qrow P0 q k * P5 (ix2 k e)) := by
  rw [pay5_eq, addf_apply]
  refine congrArg₂ (· + ·) ?_ ?_
  · refine (Cert.LibMatmulNN.matmul_nn_apply dot_S128x1024_S1024x1024_S128x1024_1_0_0_1_n_n rfl rfl rfl rfl rfl rfl none
      (truncf .bf16 (ctx P0 P3) bitsLt_bf16_f32) (shapeCast S1024x1024 P4 shapeCasts_S1024x1024_S1024x1024) q e).trans ?_
    exact Finset.sum_congr rfl fun k _ => congrArg₂ (· * ·) (ctx_apply P0 P3 q k)
      (congrFun (shapeCast_self P4 shapeCasts_S1024x1024_S1024x1024) (ix2 k e))
  · refine (Cert.LibMatmulNN.matmul_nn_apply dot_S128x1024_S1024x1024_S128x1024_1_0_0_1_n_n rfl rfl rfl rfl rfl rfl none
      (k0_pay3 (F := Ideal) P0) (shapeCast S1024x1024 P5 shapeCasts_S1024x1024_S1024x1024) q e).trans ?_
    exact Finset.sum_congr rfl fun k _ => congrArg₂ (· * ·) (rows16_apply P0 q k)
      (congrFun (shapeCast_self P5 shapeCasts_S1024x1024_S1024x1024) (ix2 k e))

/-! ## The stored block -/

variable (P6 : FVec Ideal S1x1024 .f32) (P7 : FVec Ideal S1x128x1 .f32)

/-- Entry `(0, q, e)` of the block the body leaves is the gated row of query row `q`, at column `e`. -/
theorem block_apply (q : Fin 128) (e : Fin 1024) :
    Cert.KernelIdeal.Value.E8 (F := Ideal) P0 P1 P2 P3 P4 P5 P6 P7 (ix3 (0 : Fin 1) q e)
      = rowOut (qrow P0 q) (keys P3) (P7 (ix3 (0 : Fin 1) q (0 : Fin 1))) (fun d e : Fin 1024 => P1 (ix2 d e))
          (fun e : Fin 1024 => P2 (ix2 (0 : Fin 1) e)) (fun k e : Fin 1024 => P4 (ix2 k e)) (fun k e : Fin 1024 => P5 (ix2 k e))
          (fun e : Fin 1024 => P6 (ix2 (0 : Fin 1) e)) e := by
  have i0 : Cert.KernelIdeal.Value.ix8_0 (ix3 (0 : Fin 1) q e) = ix2 q e :=
    funext fun a => by match a with | ⟨0, _⟩ => rfl | ⟨1, _⟩ => rfl
  have i2 : Cert.KernelIdeal.Value.ix8_2 (ix3 (0 : Fin 1) q e) = ix2 (0 : Fin 1) e :=
    funext fun a => by match a with | ⟨0, _⟩ => rfl | ⟨1, _⟩ => rfl
  have i3 : Cert.KernelIdeal.Value.ix8_3 (ix3 (0 : Fin 1) q e) = ix3 (0 : Fin 1) q (0 : Fin 1) :=
    funext fun a => by match a with | ⟨0, _⟩ => rfl | ⟨1, _⟩ => rfl | ⟨2, _⟩ => rfl
  have i5 : Cert.KernelIdeal.Value.ix8_5 (ix3 (0 : Fin 1) q e) = ix3 (0 : Fin 1) q e :=
    funext fun a => by match a with | ⟨0, _⟩ => rfl | ⟨1, _⟩ => rfl | ⟨2, _⟩ => rfl
  show (k0_pay4 (F := Ideal) P0 P1 P2 (Cert.KernelIdeal.Value.ix8_0 (ix3 (0 : Fin 1) q e)) : EReal)
      * (Ideal.tanh ((k0_pay5 (F := Ideal) P0 P3 P4 P5 (Cert.KernelIdeal.Value.ix8_0 (ix3 (0 : Fin 1) q e)) : EReal) + P6 (Cert.KernelIdeal.Value.ix8_2 (ix3 (0 : Fin 1) q e)))
          * P7 (Cert.KernelIdeal.Value.ix8_3 (ix3 (0 : Fin 1) q e)))
      + (one - (k0_pay4 (F := Ideal) P0 P1 P2 (Cert.KernelIdeal.Value.ix8_0 (ix3 (0 : Fin 1) q e)) : EReal)) * P0 (Cert.KernelIdeal.Value.ix8_5 (ix3 (0 : Fin 1) q e)) = _
  rw [i0, i2, i3, i5, pay4_apply, pay5_apply]
  rfl

end Cert.KernelIdeal.RowValue

end
-- ==== Proof.KernelBlocks.lean ====
/-
  From the blocks to the whole array.

  Grid point `t` has coordinates `(b, i)`: batch `b` and tile `i` of 128 positions. Its blocks are rows `128·i … 128·i + 127`
  of batch `b` of the rows `h` and of the position weights, the whole of batch `b` of the keys `ht`, and the whole weight
  matrices and biases — which the host has prepared before the call: the gate's weights and the two halves of the stacked
  update weights rounded to sixteen bits (the identity on the extended reals), the biases as `[1, 1024]` rows, the position
  weights as `[8, 2048, 1]`. The block written back is rows `128·i …` of batch `b` of the result. So what the point writes
  back is its block of the one function `G` of the argument arrays; the 128 blocks tile the result array; hence the array
  ends holding `G`.
-/
import proofs.«108480_j88261577933023_2_alg».proof.Proof.KernelRow
import Idealize.ShloMosaic.Lib.StableHlo.Run

noncomputable section

open scoped BigOperators

namespace Cert.KernelIdeal.ArrayValue

open Cert.KernelIdeal Cert.KernelIdeal.Gen Cert.KernelIdeal.Value Cert.KernelIdeal.RowValue Cert.GatedAttn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host leaves in the windows' arrays -/

/-- The gate's weights, rounded to sixteen bits. -/
theorem V_main_v0 (c : Dev nD) :
    (V m c main_v0 : S1024x1024.Idx → EReal)
      = (truncf (F := Ideal) .bf16 (m ((c : Thread nD τ).loc main_arg3) : FVec Ideal S1024x1024 .f32) bitsLt_bf16_f32 : FVec Ideal S1024x1024 .bf16) := by
  dsimp only [Gen.V, Gen.hostOps0]; after_results

/-- The first half of the stacked update weights, rounded to sixteen bits. -/
theorem V_main_v2 (c : Dev nD) :
    (V m c main_v2 : S1024x1024.Idx → EReal)
      = (truncf (F := Ideal) .bf16 (extractStridedSlice S1024x1024 ![0, 0] (m ((c : Thread nD τ).loc main_arg5) : FVec Ideal S2048x1024 .f32)
          slices_S2048x1024_S1024x1024_0_0 : FVec Ideal S1024x1024 .f32) bitsLt_bf16_f32 : FVec Ideal S1024x1024 .bf16) := by
  dsimp only [Gen.V, Gen.hostOps0]; after_results

/-- The second half. -/
theorem V_main_v4 (c : Dev nD) :
    (V m c main_v4 : S1024x1024.Idx → EReal)
      = (truncf (F := Ideal) .bf16 (extractStridedSlice S1024x1024 ![1024, 0] (m ((c : Thread nD τ).loc main_arg5) : FVec Ideal S2048x1024 .f32)
          slices_S2048x1024_S1024x1024_1024_0 : FVec Ideal S1024x1024 .f32) bitsLt_bf16_f32 : FVec Ideal S1024x1024 .bf16) := by
  dsimp only [Gen.V, Gen.hostOps0]; after_results

/-- The gate's bias as a row. -/
theorem V_main_v5 (c : Dev nD) :
    (V m c main_v5 : S1x1024.Idx → EReal) = shapeCast S1x1024 (m ((c : Thread nD τ).loc main_arg4)) shapeCasts_S1024_S1x1024 := by
  dsimp only [Gen.V, Gen.hostOps0]; after_results; rfl

/-- The update's bias as a row. -/
theorem V_main_v6 (c : Dev nD) :
    (V m c main_v6 : S1x1024.Idx → EReal) = shapeCast S1x1024 (m ((c : Thread nD τ).loc main_arg6)) shapeCasts_S1024_S1x1024 := by
  dsimp only [Gen.V, Gen.hostOps0]; after_results; rfl

/-- The position weights with a trailing unit axis. -/
theorem V_main_v7 (c : Dev nD) :
    (V m c main_v7 : S8x2048x1.Idx → EReal)
      = broadcastInDim S8x2048x1 ![0, 1] bcast_S8x2048_S8x2048x1_0_1 (m ((c : Thread nD τ).loc main_arg2)) := by
  dsimp only [Gen.V, Gen.hostOps0]; after_results

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Decided over the 128 grid points: the written block's indices are a batch and a tile of positions; the rows' and the
    position weights' blocks move with it, the keys' block follows the batch alone, and the weights' and biases' blocks
    never move. -/
theorem idx_facts : ∀ t : Fin cfg0.N,
    win0_8.index t (0 : Fin 3) < 8 ∧ win0_8.index t (1 : Fin 3) < 16 ∧ win0_8.index t (2 : Fin 3) = 0
    ∧ win0_0.index t (0 : Fin 3) = win0_8.index t (0 : Fin 3) ∧ win0_0.index t (1 : Fin 3) = win0_8.index t (1 : Fin 3)
    ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 3) = win0_8.index t (0 : Fin 3) ∧ win0_2.index t (1 : Fin 3) = win0_8.index t (1 : Fin 3)
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every batch and tile is some point's. -/
theorem idx_onto : ∀ (q0 : Fin 8) (q1 : Fin 16), ∃ t : Fin cfg0.N, win0_8.index t = ![q0.val, q1.val, 0] :=
  (by decide +kernel : ∀ (q0 : Fin 8) (q1 : Fin 16), ∃ t : Fin grid0.N, win0_8.index t = ![q0.val, q1.val, 0])

/-- The batch of grid point `t`. -/
abbrev pb (t : Fin cfg0.N) : Fin 8 := ⟨win0_8.index t (0 : Fin 3), (idx_facts t).1⟩
/-- The position, in the whole array, of row `q` of grid point `t`'s tile. -/
abbrev pr (t : Fin cfg0.N) (q : Fin 128) : Fin 2048 :=
  ⟨win0_8.index t (1 : Fin 3) * 128 + q.val, by have h := (idx_facts t).2.1; have := q.isLt; omega⟩

/-! ## Each window's block, read at the array's coordinates -/

/-- Row `q` of the tile is row `pr t q` of batch `pb t` of the rows. -/
theorem read_rows (c : Dev nD) (t : Fin cfg0.N) (q : Fin 128) (d : Fin 1024) :
    iblk m c 0 t (ix3 (0 : Fin 1) q d) = m ((c : Thread nD τ).loc main_arg0) (ix3 (pb t) (pr t q) d) := by
  obtain ⟨-, -, -, e0, e1, e2, -⟩ := idx_facts t
  show V m c main_arg0 (((cfg0.win 0).blk t).view.emb (ix3 (0 : Fin 1) q d)) = _
  rw [V_main_arg0]
  refine congrArg _ (funext fun a => Fin.ext ?_)
  match a with
  | ⟨0, _⟩ => show win0_0.index t (0 : Fin 3) * 1 + 1 * 0 = win0_8.index t (0 : Fin 3); omega
  | ⟨1, _⟩ => show win0_0.index t (1 : Fin 3) * 128 + 1 * q.val = win0_8.index t (1 : Fin 3) * 128 + q.val; omega
  | ⟨2, _⟩ => show win0_0.index t (2 : Fin 3) * 1024 + 1 * d.val = d.val; omega

/-- Key row `k` of the block is key row `k` of batch `pb t`. -/
theorem read_keys (c : Dev nD) (t : Fin cfg0.N) (k : Fin 2048) (d : Fin 1024) :
    iblk m c 1 t (ix3 (0 : Fin 1) k d) = m ((c : Thread nD τ).loc main_arg1) (ix3 (pb t) k d) := by
  obtain ⟨-, -, -, -, -, -, e0, e1, e2, -⟩ := idx_facts t
  show V m c main_arg1 (((cfg0.win 1).blk t).view.emb (ix3 (0 : Fin 1) k d)) = _
  rw [V_main_arg1]
  refine congrArg _ (funext fun a => Fin.ext ?_)
  match a with
  | ⟨0, _⟩ => show win0_1.index t (0 : Fin 3) * 1 + 1 * 0 = win0_8.index t (0 : Fin 3); omega
  | ⟨1, _⟩ => show win0_1.index t (1 : Fin 3) * 2048 + 1 * k.val = k.val; omega
  | ⟨2, _⟩ => show win0_1.index t (2 : Fin 3) * 1024 + 1 * d.val = d.val; omega

/-- The tile's position weight of row `q` is the weight of position `pr t q` of batch `pb t`. -/
theorem read_pw (c : Dev nD) (t : Fin cfg0.N) (q : Fin 128) :
    iblk m c 2 t (ix3 (0 : Fin 1) q (0 : Fin 1)) = m ((c : Thread nD τ).loc main_arg2) (ix2 (pb t) (pr t q)) := by
  obtain ⟨-, -, -, -, -, -, -, -, -, e0, e1, e2, -⟩ := idx_facts t
  show V m c main_v7 (((cfg0.win 2).blk t).view.emb (ix3 (0 : Fin 1) q (0 : Fin 1))) = _
  have he : ((cfg0.win 2).blk t).view.emb (ix3 (0 : Fin 1) q (0 : Fin 1)) = ix3 (pb t) (pr t q) (0 : Fin 1) := by
    refine funext fun a => Fin.ext ?_
    match a with
    | ⟨0, _⟩ => show win0_2.index t (0 : Fin 3) * 1 + 1 * 0 = win0_8.index t (0 : Fin 3); omega
    | ⟨1, _⟩ => show win0_2.index t (1 : Fin 3) * 128 + 1 * q.val = win0_8.index t (1 : Fin 3) * 128 + q.val; omega
    | ⟨2, _⟩ => show win0_2.index t (2 : Fin 3) * 1 + 1 * 0 = 0; omega
  rw [he, V_main_v7]
  exact broadcastInDim_apply _ bcast_S8x2048_S8x2048x1_0_1 _ (ix3 (pb t) (pr t q) (0 : Fin 1)) (ix2 (pb t) (pr t q)) (fun a => match a with
    | ⟨0, _⟩ => by show (pb t).val = if (8 : Nat) = 1 then 0 else (pb t).val; rw [if_neg (by decide)]
    | ⟨1, _⟩ => by show (pr t q).val = if (2048 : Nat) = 1 then 0 else (pr t q).val; rw [if_neg (by decide)])

/-- The gate's weights. -/
theorem read_Wg (c : Dev nD) (t : Fin cfg0.N) (d e : Fin 1024) :
    iblk m c 3 t (ix2 d e) = m ((c : Thread nD τ).loc main_arg3) (ix2 d e) := by
  obtain ⟨-, -, -, -, -, -, -, -, -, -, -, -, e0, e1, -⟩ := idx_facts t
  show V m c main_v0 (((cfg0.win 3).blk t).view.emb (ix2 d e)) = _
  have he : ((cfg0.win 3).blk t).view.emb (ix2 d e) = ix2 d e := by
    refine funext fun a => Fin.ext ?_
    match a with
    | ⟨0, _⟩ => show win0_3.index t (0 : Fin 2) * 1024 + 1 * d.val = d.val; omega
    | ⟨1, _⟩ => show win0_3.index t (1 : Fin 2) * 1024 + 1 * e.val = e.val; omega
  rw [he, V_main_v0]
  rfl

/-- The gate's bias. -/
theorem read_bg (c : Dev nD) (t : Fin cfg0.N) (e : Fin 1024) :
    iblk m c 4 t (ix2 (0 : Fin 1) e) = m ((c : Thread nD τ).loc main_arg4) (ix1 e) := by
  obtain ⟨-, -, -, -, -, -, -, -, -, -, -, -, -, -, e0, e1, -⟩ := idx_facts t
  show V m c main_v5 (((cfg0.win 4).blk t).view.emb (ix2 (0 : Fin 1) e)) = _
  have he : ((cfg0.win 4).blk t).view.emb (ix2 (0 : Fin 1) e) = ix2 (0 : Fin 1) e := by
    refine funext fun a => Fin.ext ?_
    match a with
    | ⟨0, _⟩ => show win0_4.index t (0 : Fin 2) * 1 + 1 * 0 = 0; omega
    | ⟨1, _⟩ => show win0_4.index t (1 : Fin 2) * 1024 + 1 * e.val = e.val; omega
  rw [he, V_main_v5]
  exact shapeCast_a_1a_apply _ shapeCasts_S1024_S1x1024 (0 : Fin 1) e

/-- The first half of the stacked update weights: rows `k`. -/
theorem read_W0 (c : Dev nD) (t : Fin cfg0.N) (k e : Fin 1024) :
    iblk m c 5 t (ix2 k e) = m ((c : Thread nD τ).loc main_arg5) (ix2 (lower k) e) := by
  obtain ⟨-, -, -, -, -, -, -, -, -, -, -, -, -, -, -, -, e0, e1, -⟩ := idx_facts t
  show V m c main_v2 (((cfg0.win 5).blk t).view.emb (ix2 k e)) = _
  have he : ((cfg0.win 5).blk t).view.emb (ix2 k e) = ix2 k e := by
    refine funext fun a => Fin.ext ?_
    match a with
    | ⟨0, _⟩ => show win0_5.index t (0 : Fin 2) * 1024 + 1 * k.val = k.val; omega
    | ⟨1, _⟩ => show win0_5.index t (1 : Fin 2) * 1024 + 1 * e.val = e.val; omega
  rw [he, V_main_v2]
  exact slice2_axis0_apply 0 _ slices_S2048x1024_S1024x1024_0_0 k e (lower k) (Nat.zero_add _).symm

/-- The second half: rows `1024 + k`. -/
theorem read_W1 (c : Dev nD) (t : Fin cfg0.N) (k e : Fin 1024) :
    iblk m c 6 t (ix2 k e) = m ((c : Thread nD τ).loc main_arg5) (ix2 (upper k) e) := by
  obtain ⟨-, -, -, -, -, -, -, -, -, -, -, -, -, -, -, -, -, -, e0, e1, -⟩ := idx_facts t
  show V m c main_v4 (((cfg0.win 6).blk t).view.emb (ix2 k e)) = _
  have he : ((cfg0.win 6).blk t).view.emb (ix2 k e) = ix2 k e := by
    refine funext fun a => Fin.ext ?_
    match a with
    | ⟨0, _⟩ => show win0_6.index t (0 : Fin 2) * 1024 + 1 * k.val = k.val; omega
    | ⟨1, _⟩ => show win0_6.index t (1 : Fin 2) * 1024 + 1 * e.val = e.val; omega
  rw [he, V_main_v4]
  exact slice2_axis0_apply 1024 _ slices_S2048x1024_S1024x1024_1024_0 k e (upper k) rfl

/-- The update's bias. -/
theorem read_bl (c : Dev nD) (t : Fin cfg0.N) (e : Fin 1024) :
    iblk m c 7 t (ix2 (0 : Fin 1) e) = m ((c : Thread nD τ).loc main_arg6) (ix1 e) := by
  obtain ⟨-, -, -, -, -, -, -, -, -, -, -, -, -, -, -, -, -, -, -, -, e0, e1⟩ := idx_facts t
  show V m c main_v6 (((cfg0.win 7).blk t).view.emb (ix2 (0 : Fin 1) e)) = _
  have he : ((cfg0.win 7).blk t).view.emb (ix2 (0 : Fin 1) e) = ix2 (0 : Fin 1) e := by
    refine funext fun a => Fin.ext ?_
    match a with
    | ⟨0, _⟩ => show win0_7.index t (0 : Fin 2) * 1 + 1 * 0 = 0; omega
    | ⟨1, _⟩ => show win0_7.index t (1 : Fin 2) * 1024 + 1 * e.val = e.val; omega
  rw [he, V_main_v6]
  exact shapeCast_a_1a_apply _ shapeCasts_S1024_S1x1024 (0 : Fin 1) e

/-! ## What a point writes back -/

/-- The body's one store leaves the block `E8` of the loaded blocks. -/
theorem out_eq (x0 : Vec Ideal S1x128x1024 .f32) (x1 : Vec Ideal S1x2048x1024 .f32) (x2 : Vec Ideal S1x128x1 .f32)
    (x3 : Vec Ideal S1024x1024 .bf16) (x4 : Vec Ideal S1x1024 .f32) (x5 x6 : Vec Ideal S1024x1024 .bf16) (x7 : Vec Ideal S1x1024 .f32) :
    out0_8 x0 x1 x2 x3 x4 x5 x6 x7 = E8 x0 x3 x4 x1 x5 x6 x7 x2 := by
  funext y
  unfold out0_8
  simp only [View.ld_unit_zero (S := S1x128x1024) hz3, View.ld_unit_zero (S := S1x2048x1024) hz3,
    View.ld_unit_zero (S := S1x128x1) hz3, View.ld_unit_zero (S := S1024x1024) hz2, View.ld_unit_zero (S := S1x1024) hz2]
  exact canon8_eq x0 x3 x4 x1 x5 x6 x7 x2 y

/-- The gated row depends only on its arguments' values. -/
theorem rowOut_congr {D L : ℕ} {x x' : Fin D → EReal} {K K' : Fin L → Fin D → EReal} {pw pw' : EReal}
    {Wg Wg' : Fin D → Fin D → EReal} {bg bg' : Fin D → EReal} {W0 W0' W1 W1' : Fin D → Fin D → EReal} {bl bl' : Fin D → EReal}
    (hx : x = x') (hK : K = K') (hp : pw = pw') (hWg : Wg = Wg') (hbg : bg = bg') (hW0 : W0 = W0') (hW1 : W1 = W1')
    (hbl : bl = bl') (e : Fin D) : rowOut x K pw Wg bg W0 W1 bl e = rowOut x' K' pw' Wg' bg' W0' W1' bl' e := by
  subst hx hK hp hWg hbg hW0 hW1 hbl; rfl

/-- WHAT POINT `t` WRITES BACK is its block of `G` of the argument arrays. -/
theorem flushed_eq (c : Dev nD) (t : Fin cfg0.N) :
    (dats m 0 c).flushed 8 t = ((cfg0.win 8).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [flushed8]
  funext y
  obtain ⟨u, q, e, rfl⟩ : ∃ (u : Fin 1) (q : Fin 128) (e : Fin 1024), y = ix3 u q e := ⟨y 0, y 1, y 2, eq_ix3 y⟩
  obtain rfl : u = 0 := Subsingleton.elim _ _
  obtain ⟨-, -, h2, -⟩ := idx_facts t
  have hemb : ((cfg0.win 8).blk t).view.emb (ix3 (0 : Fin 1) q e) = ix3 (pb t) (pr t q) e := by
    refine funext fun a => Fin.ext ?_
    match a with
    | ⟨0, _⟩ => show win0_8.index t (0 : Fin 3) * 1 + 1 * 0 = win0_8.index t (0 : Fin 3); omega
    | ⟨1, _⟩ => show win0_8.index t (1 : Fin 3) * 128 + 1 * q.val = win0_8.index t (1 : Fin 3) * 128 + q.val; omega
    | ⟨2, _⟩ => show win0_8.index t (2 : Fin 3) * 1024 + 1 * e.val = e.val; omega
  show out0_8 (iblk m c 0 t) (iblk m c 1 t) (iblk m c 2 t) (iblk m c 3 t) (iblk m c 4 t) (iblk m c 5 t) (iblk m c 6 t) (iblk m c 7 t)
      (ix3 (0 : Fin 1) q e) = G _ _ _ _ _ _ _ (((cfg0.win 8).blk t).view.emb (ix3 (0 : Fin 1) q e))
  rw [hemb, G_ix3]
  refine (congrFun (out_eq (iblk m c 0 t) (iblk m c 1 t) (iblk m c 2 t) (iblk m c 3 t) (iblk m c 4 t) (iblk m c 5 t) (iblk m c 6 t)
    (iblk m c 7 t)) (ix3 (0 : Fin 1) q e)).trans ?_
  refine (block_apply (iblk m c 0 t) (iblk m c 1 t) (iblk m c 3 t) (iblk m c 4 t) (iblk m c 5 t) (iblk m c 6 t) (iblk m c 7 t)
    (iblk m c 2 t) q e).trans ?_
  exact rowOut_congr (funext fun d => read_rows m c t q d) (funext fun k => funext fun d => read_keys m c t k d) (read_pw m c t q)
    (funext fun d => funext fun e => read_Wg m c t d e) (funext fun e => read_bg m c t e)
    (funext fun k => funext fun e => read_W0 m c t k e) (funext fun k => funext fun e => read_W1 m c t k e)
    (funext fun e => read_bl m c t e) e

/-! ## The blocks tile the array -/

/-- An index of the array is in point `t`'s block iff each coordinate is in the block's range on its axis. -/
theorem mem_blk (t : Fin cfg0.N) (i : S8x2048x1024.Idx) :
    i ∈ ((cfg0.win 8).blk t).view.set ↔ ∀ a : Fin 3, win0_8.index t a * S1x128x1024.size a ≤ (i a).val
      ∧ (i a).val < win0_8.index t a * S1x128x1024.size a + S1x128x1024.size a := by
  show i ∈ ((View.whole main_v8).slice (win0_8.rect t)).set ↔ _
  rw [View.set_slice_whole, Rect.mem_set_unit]
  exact Iff.rfl

/-- Every index of the result is in some point's block: batch `i 0`, tile `i 1 / 128`. -/
theorem cover (i : S8x2048x1024.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 128, by omega⟩
  have q0 : win0_8.index t (0 : Fin 3) = (i 0).val := congrFun ht 0
  have q1 : win0_8.index t (1 : Fin 3) = (i 1).val / 128 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 1024 ≤ (i 2).val ∧ (i 2).val < win0_8.index t (2 : Fin 3) * 1024 + 1024; omega

/-- THE ARRAY after the run is `G` of the argument arrays. -/
theorem final (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 8 _ (fun t _ => flushed_eq m c t) cover

/-! ## The run, read -/

/-- Every weakly fair execution of the kernel's program ends with the result array at `G` of the argument arrays, and
    the arguments unchanged. -/
theorem run : θ_run defs (onTc (τ := τ) (main (F := Ideal))) ⟨m, fun _ => 0, ρ⟩ fun r => ∀ c : Dev nD,
      r.2.mem ((c : Thread nD τ).loc main_v8)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.ArrayValue

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefValue.lean ====
/-
  The reference's result is the gated row at every batch and position.

  Read at `(b, l, e)`, each stage of the reference's program is the stage of the same name of `Proof/Spec.lean` for the query
  row `h (b, l, ·)` and the key rows `ht (b, ·, ·)`: the einsums are plain sums over the contracted axis; `jax.nn.softmax`
  is the row maximum (a fold of `max` from `−∞`, which a further `max` with `−∞` leaves alone), the exponentials of the
  differences, their sum from zero, and the quotients; `jax.nn.sigmoid` arrives expanded as `1 / (1 + e^(−y))`, which is the
  sigmoid; and the two halves of the stacked weight matrix are its rows `k` and `1024 + k`.
-/
import proofs.«108480_j88261577933023_2_alg».proof.Proof.Gen.ReferenceIdeal.Read
import proofs.«108480_j88261577933023_2_alg».proof.Proof.Spec
import proofs.«108480_j88261577933023_2_alg».proof.Proof.LibHostMax3

noncomputable section

open scoped BigOperators

namespace Cert.ReferenceIdeal.RefValue

open Cert.ReferenceIdeal Cert.ReferenceIdeal.Gen Cert.ReferenceIdeal.Read Cert.GatedAttn Idealize.ShloMosaic Idealize.ShloMosaic.ValueIdx

variable (x0 x1 : (⟨S8x2048x1024, .f32⟩ : BufTy).Contents (Elt Ideal)) (x2 : (⟨S8x2048, .f32⟩ : BufTy).Contents (Elt Ideal))
  (x3 : (⟨S1024x1024, .f32⟩ : BufTy).Contents (Elt Ideal)) (x4 : (⟨S1024, .f32⟩ : BufTy).Contents (Elt Ideal))
  (x5 : (⟨S2048x1024, .f32⟩ : BufTy).Contents (Elt Ideal)) (x6 : (⟨S1024, .f32⟩ : BufTy).Contents (Elt Ideal))

/-- Query row `(b, l)`. -/
abbrev qrow (b : Fin 8) (l : Fin 2048) : Fin 1024 → EReal := fun d => x0 (ix3 b l d)
/-- Batch `b`'s key rows. -/
abbrev keys (b : Fin 8) : Fin 2048 → Fin 1024 → EReal := fun m d => x1 (ix3 b m d)

/-! ## The attention stages -/

theorem scores_ref (b : Fin 8) (l m : Fin 2048) :
    val_main_v10 (F := Ideal) x0 x1 (ix3 b l m) = score (qrow x0 b l) (keys x1 b) m := by
  rw [val_main_v10_apply]
  refine Finset.sum_congr rfl fun k _ => congrArg₂ (· * ·) (congrArg x0 ?_) (congrArg x1 ?_)
  · funext a; match a with | ⟨0, _⟩ => rfl | ⟨1, _⟩ => rfl | ⟨2, _⟩ => rfl
  · funext a; match a with | ⟨0, _⟩ => rfl | ⟨1, _⟩ => rfl | ⟨2, _⟩ => rfl

theorem rowMax_ref (b : Fin 8) (l : Fin 2048) :
    val_main_v13 (F := Ideal) x0 x1 (ix2 b l) = rowMax (qrow x0 b l) (keys x1 b) := by
  have h11 : val_main_v11 (F := Ideal) x0 x1 (ix2 b l)
      = (Finset.univ : Finset (Fin 2048)).fold max negInf (fun m => score (qrow x0 b l) (keys x1 b) m) := by
    unfold val_main_v11
    refine (hostReduce_max_last3_apply (u := S_) (val_main_v10 (F := Ideal) x0 x1) (val_main_cst_1 (F := Ideal))
      reducesTo_S8x2048x2048_S8x2048_d2 (by decide) h_S_ b l).trans ?_
    exact congrArg (Finset.fold max _ · _) (funext fun k => scores_ref x0 x1 b l k)
  rw [val_main_v13_apply, val_main_v12_apply, val_main_cst_2_apply, h11]
  exact max_fold_max _ _ _

theorem weights_ref (b : Fin 8) (l m : Fin 2048) :
    val_main_v17 (F := Ideal) x0 x1 (ix3 b l m) = weight (qrow x0 b l) (keys x1 b) m := by
  have e : idx_main_v14 (idx_main_v15 (ix3 b l m)) = ix2 b l :=
    funext fun a => by match a with | ⟨0, _⟩ => rfl | ⟨1, _⟩ => rfl
  rw [val_main_v17_apply, val_main_v16_apply, val_main_v15_apply, val_main_v14_apply, e, scores_ref, rowMax_ref]
  rfl

theorem sums_ref (b : Fin 8) (l : Fin 2048) :
    val_main_v18 (F := Ideal) x0 x1 (ix2 b l) = ∑ m : Fin 2048, weight (qrow x0 b l) (keys x1 b) m := by
  rw [val_main_v18_apply, val_main_cst_3_apply]
  show Ideal.ofBits .f32 0x00000000#32 + _ = _
  rw [Ideal.ofBits_zero_f32, zero_add]
  refine Finset.sum_congr rfl fun k _ => ?_
  have e : idx_main_v18 (ix2 b l) k = ix3 b l k :=
    funext fun a => by match a with | ⟨0, _⟩ => rfl | ⟨1, _⟩ => rfl | ⟨2, _⟩ => rfl
  rw [e]
  exact weights_ref x0 x1 b l k

theorem coeffs_ref (b : Fin 8) (l m : Fin 2048) :
    val_main_v21 (F := Ideal) x0 x1 (ix3 b l m) = coeff (qrow x0 b l) (keys x1 b) m := by
  have e : idx_main_v19 (idx_main_v20 (ix3 b l m)) = ix2 b l :=
    funext fun a => by match a with | ⟨0, _⟩ => rfl | ⟨1, _⟩ => rfl
  rw [val_main_v21_apply, val_main_v20_apply, val_main_v19_apply, e, weights_ref, sums_ref]
  rfl

theorem context_ref (b : Fin 8) (l : Fin 2048) (e : Fin 1024) :
    val_main_v22 (F := Ideal) x0 x1 (ix3 b l e) = context (qrow x0 b l) (keys x1 b) e := by
  rw [val_main_v22_apply]
  refine Finset.sum_congr rfl fun k _ => ?_
  have el : lidx_main_v22 (ix3 b l e) k = ix3 b l k :=
    funext fun a => by match a with | ⟨0, _⟩ => rfl | ⟨1, _⟩ => rfl | ⟨2, _⟩ => rfl
  have er : ridx_main_v22 (ix3 b l e) k = ix3 b k e :=
    funext fun a => by match a with | ⟨0, _⟩ => rfl | ⟨1, _⟩ => rfl | ⟨2, _⟩ => rfl
  rw [el, er, coeffs_ref]

/-! ## The gate and the update -/

theorem gate_ref (b : Fin 8) (l : Fin 2048) (e : Fin 1024) :
    val_main_v9 (F := Ideal) x0 x3 x4 (ix3 b l e)
      = gate (qrow x0 b l) (fun d e : Fin 1024 => x3 (ix2 d e)) (fun e : Fin 1024 => x4 (ix1 e)) e := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  refine (logistic_of_literal _).trans ?_
  refine congrArg Ideal.logistic (congrArg₂ (· + ·) (Finset.sum_congr rfl fun k _ =>
    congrArg₂ (· * ·) (congrArg x0 ?_) (congrArg x3 ?_)) (congrArg x4 ?_))
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

theorem linear_ref (b : Fin 8) (l : Fin 2048) (e : Fin 1024) :
    val_main_v30 (F := Ideal) x0 x1 x5 x6 (ix3 b l e)
      = ((∑ k : Fin 1024, context (qrow x0 b l) (keys x1 b) k * x5 (ix2 (lower k) e))
          + (∑ k : Fin 1024, qrow x0 b l k * x5 (ix2 (upper k) e))) + x6 (ix1 e) := by
  rw [val_main_v30_apply, val_main_v27_apply, val_main_v24_apply, val_main_v26_apply, val_main_v29_apply, val_main_v28_apply]
  refine congrArg₂ (· + ·) (congrArg₂ (· + ·) ?_ ?_) (congrArg x6 ?_)
  · refine Finset.sum_congr rfl fun k _ => ?_
    have el : lidx_main_v24 (ix3 b l e) k = ix3 b l k :=
      funext fun a => by match a with | ⟨0, _⟩ => rfl | ⟨1, _⟩ => rfl | ⟨2, _⟩ => rfl
    rw [el, context_ref, val_main_v23_apply]
    refine congrArg (_ * x5 ·) ?_
    funext a; match a with | ⟨0, _⟩ => rfl | ⟨1, _⟩ => rfl
  · refine Finset.sum_congr rfl fun k _ => ?_
    rw [val_main_v25_apply]
    refine congrArg₂ (· * ·) (congrArg x0 ?_) (congrArg x5 ?_)
    · funext a; match a with | ⟨0, _⟩ => rfl | ⟨1, _⟩ => rfl | ⟨2, _⟩ => rfl
    · funext a; match a with | ⟨0, _⟩ => rfl | ⟨1, _⟩ => rfl
  · funext a; match a with | ⟨0, _⟩ => rfl

/-! ## The result -/

theorem out_ref (b : Fin 8) (l : Fin 2048) (e : Fin 1024) :
    val_main_v39 (F := Ideal) x0 x1 x2 x3 x4 x5 x6 (ix3 b l e) = G x0 x1 x2 x3 x4 x5 x6 (ix3 b l e) := by
  have ep : idx_main_v32 (idx_main_v33 (ix3 b l e)) = ix2 b l :=
    funext fun a => by match a with | ⟨0, _⟩ => rfl | ⟨1, _⟩ => rfl
  rw [val_main_v39_apply, val_main_v35_apply, val_main_v34_apply, val_main_v31_apply, val_main_v33_apply, val_main_v32_apply,
    val_main_v38_apply, val_main_v37_apply, val_main_v36_apply, val_main_cst_4_apply, ep, gate_ref, linear_ref, G_ix3]
  rfl

/-- The reference's result array is `G` of its argument arrays. -/
theorem result_eq : val_main_v39 (F := Ideal) x0 x1 x2 x3 x4 x5 x6 = G x0 x1 x2 x3 x4 x5 x6 := by
  funext i
  obtain ⟨b, l, e, rfl⟩ : ∃ (b : Fin 8) (l : Fin 2048) (e : Fin 1024), i = ix3 b l e := ⟨i 0, i 1, i 2, eq_ix3 i⟩
  exact out_ref x0 x1 x2 x3 x4 x5 x6 b l e

end Cert.ReferenceIdeal.RefValue

end
-- ==== Proof.lean ====
/-
  Gated cross-attention: the tiled kernel and the whole-array reference compute one function.

  For rows `h : [8, 2048, 1024]`, keys `ht : [8, 2048, 1024]`, position weights `[8, 2048]`, a gate `(W_gate, b_gate)` and a
  stacked update `(W_lin : [2048, 1024], b_lin)`, both programs produce, at batch `b`, position `l` and column `e`,

      gate · (tanh (context · W_lin[:1024] + h · W_lin[1024:] + b_lin) · weight) + (1 − gate) · h,

  where `gate = σ (h · W_gate + b_gate)` and `context = softmax (h · htᵀ) · ht` over batch `b`'s 2048 keys
  (`Proof/Spec.lean`: the function `G`). The kernel visits the 8 × 16 grid of (batch, tile of 128 positions) and writes the
  matching block of the result at each point (`Proof/KernelRow.lean`: a block row by row; `Proof/KernelBlocks.lean`: the
  blocks tile the array); the reference computes the same expression over whole arrays (`Proof/RefValue.lean`). On the
  extended reals the two agree operation by operation: a matrix product into a zero accumulator is the host's contraction,
  a lane sum the host's sum from zero, a lane maximum the host's fold of `max` from `−∞` (to which a further `max` with
  `−∞` adds nothing), a rounding to sixteen bits the identity, and the sigmoid its expansion `1 / (1 + e^(−y))`. No law is
  used that needs the inputs finite. Each program runs, faults nowhere and leaves its arguments as they were (the three
  frames); nothing was rewritten between the kernel as printed and as idealized, so that claim is trivial.
-/
import proofs.«108480_j88261577933023_2_alg».proof.Defs
import proofs.«108480_j88261577933023_2_alg».proof.Proof.Gen.Kernel
import proofs.«108480_j88261577933023_2_alg».proof.Proof.Gen.Kernel.Skeleton
import proofs.«108480_j88261577933023_2_alg».proof.Proof.Gen.Kernel.Launch
import proofs.«108480_j88261577933023_2_alg».proof.Proof.Gen.Kernel.Points
import proofs.«108480_j88261577933023_2_alg».proof.Proof.Gen.Kernel.Frame
import proofs.«108480_j88261577933023_2_alg».proof.Proof.Gen.KernelIdeal
import proofs.«108480_j88261577933023_2_alg».proof.Proof.Gen.KernelIdeal.Skeleton
import proofs.«108480_j88261577933023_2_alg».proof.Proof.Gen.KernelIdeal.Launch
import proofs.«108480_j88261577933023_2_alg».proof.Proof.Gen.KernelIdeal.Points
import proofs.«108480_j88261577933023_2_alg».proof.Proof.Gen.KernelIdeal.Frame
import proofs.«108480_j88261577933023_2_alg».proof.Proof.Gen.ReferenceIdeal
import proofs.«108480_j88261577933023_2_alg».proof.Proof.Gen.KernelIdeal.Value
import proofs.«108480_j88261577933023_2_alg».proof.Proof.Gen.ReferenceIdeal.Run
import proofs.«108480_j88261577933023_2_alg».proof.Proof.Gen.ReferenceIdeal.Read
import proofs.«108480_j88261577933023_2_alg».proof.Proof.Gen.Pre_finite_inputs
import proofs.«108480_j88261577933023_2_alg».proof.Proof.KernelBlocks
import proofs.«108480_j88261577933023_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the seven arguments the kernel's result array ends at `G` of them (its blocks tile the
    array) and the reference's at the same `G` (stage by stage). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6⟩ := hagree c
  rw [(h c).1, Cert.ReferenceIdeal.Read.val_main_v39_eq, Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
